-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_v18) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16x2048x64 : Shape := ⟨4, ![4, 16, 2048, 64]⟩
abbrev S4x1x1x2048 : Shape := ⟨4, ![4, 1, 1, 2048]⟩
abbrev S_ : Shape := ⟨0, ![]⟩

class Facts : Prop where
  bcast_S_S4x16x2048x64 : S_.BroadcastsInDim S4x16x2048x64 (![] : Fin 0 → Fin S4x16x2048x64.rank)
  reducesTo_S4x16x2048x64_S_d0_1_2_3 : S4x16x2048x64.ReducesTo [0, 1, 2, 3] S_
  h_S_ : 0 < S_.numel
  bcast_S_S4x1x1x2048 : S_.BroadcastsInDim S4x1x1x2048 (![] : Fin 0 → Fin S4x1x1x2048.rank)
  reducesTo_S4x1x1x2048_S_d0_1_2_3 : S4x1x1x2048.ReducesTo [0, 1, 2, 3] S_

variable [Facts]

def fn_part1 {F : FTy → Type} [FloatOps F] (main_v13 : IVec S_ 1) (main_v16 : IVec S4x1x1x2048 1) : IVec S_ 1 :=
  let main_c_5 : IVec S_ 1 := constantI S_ 1 1#1
  let main_v17 : IVec S_ 1 := (fun x v => Host.reduce IntOp.andi x v reducesTo_S4x1x1x2048_S_d0_1_2_3 h_S_) main_v16 main_c_5
  let main_v18 : IVec S_ 1 := andi main_v13 main_v17
  main_v18

def fn {F : FTy → Type} [FloatOps F] (main_arg0 : FVec F S4x16x2048x64 .f32) (main_arg1 : FVec F S4x16x2048x64 .f32) (main_arg2 : FVec F S4x16x2048x64 .f32) (main_arg3 : FVec F S4x1x1x2048 .f32) : IVec S_ 1 :=
  let main_v0 : FVec F S4x16x2048x64 .f32 := Host.absf main_arg0
  let main_cst : FVec F S_ .f32 := constant S_ .f32 0x7F800000#32
  let main_v1 : FVec F S4x16x2048x64 .f32 := broadcastInDim S4x16x2048x64 ![] bcast_S_S4x16x2048x64 main_cst
  let main_v2 : IVec S4x16x2048x64 1 := cmpf .olt main_v0 main_v1
  let main_c : IVec S_ 1 := constantI S_ 1 1#1
  let main_v3 : IVec S_ 1 := (fun x v => Host.reduce IntOp.andi x v reducesTo_S4x16x2048x64_S_d0_1_2_3 h_S_) main_v2 main_c
  let main_v4 : FVec F S4x16x2048x64 .f32 := Host.absf main_arg1
  let main_cst_0 : FVec F S_ .f32 := constant S_ .f32 0x7F800000#32
  let main_v5 : FVec F S4x16x2048x64 .f32 := broadcastInDim S4x16x2048x64 ![] bcast_S_S4x16x2048x64 main_cst_0
  let main_v6 : IVec S4x16x2048x64 1 := cmpf .olt main_v4 main_v5
  let main_c_1 : IVec S_ 1 := constantI S_ 1 1#1
  let main_v7 : IVec S_ 1 := (fun x v => Host.reduce IntOp.andi x v reducesTo_S4x16x2048x64_S_d0_1_2_3 h_S_) main_v6 main_c_1
  let main_v8 : IVec S_ 1 := andi main_v3 main_v7
  let main_v9 : FVec F S4x16x2048x64 .f32 := Host.absf main_arg2
  let main_cst_2 : FVec F S_ .f32 := constant S_ .f32 0x7F800000#32
  let main_v10 : FVec F S4x16x2048x64 .f32 := broadcastInDim S4x16x2048x64 ![] bcast_S_S4x16x2048x64 main_cst_2
  let main_v11 : IVec S4x16x2048x64 1 := cmpf .olt main_v9 main_v10
  let main_c_3 : IVec S_ 1 := constantI S_ 1 1#1
  let main_v12 : IVec S_ 1 := (fun x v => Host.reduce IntOp.andi x v reducesTo_S4x16x2048x64_S_d0_1_2_3 h_S_) main_v11 main_c_3
  let main_v13 : IVec S_ 1 := andi main_v8 main_v12
  let main_v14 : FVec F S4x1x1x2048 .f32 := Host.absf main_arg3
  let main_cst_4 : FVec F S_ .f32 := constant S_ .f32 0x7F800000#32
  let main_v15 : FVec F S4x1x1x2048 .f32 := broadcastInDim S4x1x1x2048 ![] bcast_S_S4x1x1x2048 main_cst_4
  let main_v16 : IVec S4x1x1x2048 1 := cmpf .olt main_v14 main_v15
  fn_part1 (F := F) main_v13 main_v16
-- ==== Kernel.lean ====
abbrev S4x16x2048x64 : Shape := ⟨4, ![4, 16, 2048, 64]⟩
abbrev S4x1x1x2048 : Shape := ⟨4, ![4, 1, 1, 2048]⟩
abbrev S4x16x2048x2048 : Shape := ⟨4, ![4, 16, 2048, 2048]⟩
abbrev S1x1x512x64 : Shape := ⟨4, ![1, 1, 512, 64]⟩
abbrev S1x1x2048x64 : Shape := ⟨4, ![1, 1, 2048, 64]⟩
abbrev S1x1x1x2048 : Shape := ⟨4, ![1, 1, 1, 2048]⟩
abbrev S1x1x512x2048 : Shape := ⟨4, ![1, 1, 512, 2048]⟩
abbrev S512x64 : Shape := ⟨2, ![512, 64]⟩
abbrev S2048x64 : Shape := ⟨2, ![2048, 64]⟩
abbrev S2048 : Shape := ⟨1, ![2048]⟩
abbrev S64x2048 : Shape := ⟨2, ![64, 2048]⟩
abbrev S512x2048 : Shape := ⟨2, ![512, 2048]⟩
abbrev S1x2048 : Shape := ⟨2, ![1, 2048]⟩
abbrev S512 : Shape := ⟨1, ![512]⟩
abbrev S512x1 : Shape := ⟨2, ![512, 1]⟩

abbrev nBuf : Space → Nat
  | .hbm => 6
  | .vmem => 12
  | .smem => 0
  | _ => 0

abbrev bufTy : (tb : Table) → Fin (tcTables nBuf tb) → BufTy
  | .hbm, ⟨0, _⟩ => ⟨S4x16x2048x64, .f32⟩
  | .hbm, ⟨1, _⟩ => ⟨S4x16x2048x64, .f32⟩
  | .hbm, ⟨2, _⟩ => ⟨S4x16x2048x64, .f32⟩
  | .hbm, ⟨3, _⟩ => ⟨S4x1x1x2048, .f32⟩
  | .hbm, ⟨4, _⟩ => ⟨S4x16x2048x64, .f32⟩
  | .hbm, ⟨5, _⟩ => ⟨S4x16x2048x2048, .f32⟩
  | .local _ .vmem, ⟨0, _⟩ => ⟨S1x1x512x64, .f32⟩
  | .local _ .vmem, ⟨1, _⟩ => ⟨S1x1x512x64, .f32⟩
  | .local _ .vmem, ⟨2, _⟩ => ⟨S1x1x2048x64, .f32⟩
  | .local _ .vmem, ⟨3, _⟩ => ⟨S1x1x2048x64, .f32⟩
  | .local _ .vmem, ⟨4, _⟩ => ⟨S1x1x2048x64, .f32⟩
  | .local _ .vmem, ⟨5, _⟩ => ⟨S1x1x2048x64, .f32⟩
  | .local _ .vmem, ⟨6, _⟩ => ⟨S1x1x1x2048, .f32⟩
  | .local _ .vmem, ⟨7, _⟩ => ⟨S1x1x1x2048, .f32⟩
  | .local _ .vmem, ⟨8, _⟩ => ⟨S1x1x512x64, .f32⟩
  | .local _ .vmem, ⟨9, _⟩ => ⟨S1x1x512x64, .f32⟩
  | .local _ .vmem, ⟨10, _⟩ => ⟨S1x1x512x2048, .f32⟩
  | .local _ .vmem, ⟨11, _⟩ => ⟨S1x1x512x2048, .f32⟩
  | _, _ => ⟨S4x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 16, 4], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x1x512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

class Facts₀ : Prop where
  inb_S1x1x512x64_S1x1x512x64_0_0_0_0 : ∀ a, (![0, 0, 0, 0] : Fin 4 → Nat) a + S1x1x512x64.size a ≤ S1x1x512x64.size a
  h_S1x1x512x64 : 0 < S1x1x512x64.numel
  shapeCasts_S1x1x512x64_S512x64 : S1x1x512x64.ShapeCasts S512x64
  inb_S1x1x2048x64_S1x1x2048x64_0_0_0_0 : ∀ a, (![0, 0, 0, 0] : Fin 4 → Nat) a + S1x1x2048x64.size a ≤ S1x1x2048x64.size a
  h_S1x1x2048x64 : 0 < S1x1x2048x64.numel
  shapeCasts_S1x1x2048x64_S2048x64 : S1x1x2048x64.ShapeCasts S2048x64
  inb_S1x1x1x2048_S1x1x1x2048_0_0_0_0 : ∀ a, (![0, 0, 0, 0] : Fin 4 → Nat) a + S1x1x1x2048.size a ≤ S1x1x1x2048.size a
  h_S1x1x1x2048 : 0 < S1x1x1x2048.numel
  shapeCasts_S1x1x1x2048_S2048 : S1x1x1x2048.ShapeCasts S2048
  transposes_S2048x64_p1_0_S64x2048 : S2048x64.Transposes [1, 0] S64x2048
  shapeCasts_S2048_S1x2048 : S2048.ShapeCasts S1x2048
  broadcasts_S1x2048_S512x2048 : S1x2048.Broadcasts S512x2048
  reduces_S512x2048_S512 : S512x2048.Reduces [1] S512
  shapeCasts_S512_S512x1 : S512.ShapeCasts S512x1
  broadcasts_S512x1_S512x2048 : S512x1.Broadcasts S512x2048
  inb_S1x1x512x2048_S1x1x512x2048_0_0_0_0 : ∀ a, (![0, 0, 0, 0] : Fin 4 → Nat) a + S1x1x512x2048.size a ≤ S1x1x512x2048.size a
  h_S1x1x512x2048 : 0 < S1x1x512x2048.numel
  shapeCasts_S1x1x512x2048_S512x2048 : S1x1x512x2048.ShapeCasts S512x2048
  shapeCasts_S512x2048_S1x1x512x2048 : S512x2048.ShapeCasts S1x1x512x2048
  shapeCasts_S512x64_S1x1x512x64 : S512x64.ShapeCasts S1x1x512x64
  dot_S512x64_S64x2048_S512x2048_1_0_0_1_n_n_wf : DotDims.WF S512x64 S64x2048 S512x2048 [1] [0] [0] [1] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x512x64.size a ≤ S4x16x2048x64.size a
  hwx0_0 : ∀ i : grid0.Coords, EltTy.bits .f32 = 32 ∨ (Rect.block (s := S4x16x2048x64) S1x1x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x2048x64.size a ≤ S4x16x2048x64.size a
  hwx0_1 : ∀ i : grid0.Coords, EltTy.bits .f32 = 32 ∨ (Rect.block (s := S4x16x2048x64) S1x1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x2048x64.size a ≤ S4x16x2048x64.size a
  hwx0_2 : ∀ i : grid0.Coords, EltTy.bits .f32 = 32 ∨ (Rect.block (s := S4x16x2048x64) S1x1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1x2048.size a ≤ S4x1x1x2048.size a
  hwx0_3 : ∀ i : grid0.Coords, EltTy.bits .f32 = 32 ∨ (Rect.block (s := S4x1x1x2048) S1x1x1x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x512x64.size a ≤ S4x16x2048x64.size a
  hwx0_4 : ∀ i : grid0.Coords, EltTy.bits .f32 = 32 ∨ (Rect.block (s := S4x16x2048x64) S1x1x512x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x512x2048.size a ≤ S4x16x2048x2048.size a
  hwx0_5 : ∀ i : grid0.Coords, EltTy.bits .f32 = 32 ∨ (Rect.block (s := S4x16x2048x2048) S1x1x512x2048.size (cc0_transform_5 i) (hinb0_5 i)).WholeWords (EltTy.packing .f32)

variable [Facts₀]

def dot_S512x64_S64x2048_S512x2048_1_0_0_1_n_n : DotDims S512x64 S64x2048 S512x2048 where
  lhsContracting := [1]
  rhsContracting := [0]
  lhsNonContracting := [0]
  rhsNonContracting := [1]
  lhsBatch := []
  rhsBatch := []
  wf := dot_S512x64_S64x2048_S512x2048_1_0_0_1_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_arg0) S1x1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x1x1x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S1x1x512x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S1x1x512x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x16x2048x64 : Shape := ⟨4, ![4, 16, 2048, 64]⟩
abbrev S4x1x1x2048 : Shape := ⟨4, ![4, 1, 1, 2048]⟩
abbrev S4x16x2048x2048 : Shape := ⟨4, ![4, 16, 2048, 2048]⟩
abbrev S_ : Shape := ⟨0, ![]⟩
abbrev S4x16x2048 : Shape := ⟨3, ![4, 16, 2048]⟩
abbrev S4x16x2048x1 : Shape := ⟨4, ![4, 16, 2048, 1]⟩

abbrev nBuf : Space → Nat
  | .hbm => 29
  | .vmem => 0
  | .smem => 0
  | _ => 0

abbrev bufTy : (tb : Table) → Fin (tcTables nBuf tb) → BufTy
  | .hbm, ⟨0, _⟩ => ⟨S4x16x2048x64, .f32⟩
  | .hbm, ⟨1, _⟩ => ⟨S4x16x2048x64, .f32⟩
  | .hbm, ⟨2, _⟩ => ⟨S4x16x2048x64, .f32⟩
  | .hbm, ⟨3, _⟩ => ⟨S4x1x1x2048, .f32⟩
  | .hbm, ⟨4, _⟩ => ⟨S4x16x2048x2048, .f32⟩
  | .hbm, ⟨5, _⟩ => ⟨S_, .f32⟩
  | .hbm, ⟨6, _⟩ => ⟨S_, .f32⟩
  | .hbm, ⟨7, _⟩ => ⟨S4x16x2048x2048, .f32⟩
  | .hbm, ⟨8, _⟩ => ⟨S4x16x2048x2048, .f32⟩
  | .hbm, ⟨9, _⟩ => ⟨S_, .f32⟩
  | .hbm, ⟨10, _⟩ => ⟨S4x1x1x2048, .f32⟩
  | .hbm, ⟨11, _⟩ => ⟨S4x1x1x2048, .f32⟩
  | .hbm, ⟨12, _⟩ => ⟨S4x16x2048x2048, .f32⟩
  | .hbm, ⟨13, _⟩ => ⟨S4x16x2048x2048, .f32⟩
  | .hbm, ⟨14, _⟩ => ⟨S_, .f32⟩
  | .hbm, ⟨15, _⟩ => ⟨S4x16x2048, .f32⟩
  | .hbm, ⟨16, _⟩ => ⟨S_, .f32⟩
  | .hbm, ⟨17, _⟩ => ⟨S4x16x2048, .f32⟩
  | .hbm, ⟨18, _⟩ => ⟨S4x16x2048, .f32⟩
  | .hbm, ⟨19, _⟩ => ⟨S4x16x2048x1, .f32⟩
  | .hbm, ⟨20, _⟩ => ⟨S4x16x2048x2048, .f32⟩
  | .hbm, ⟨21, _⟩ => ⟨S4x16x2048x2048, .f32⟩
  | .hbm, ⟨22, _⟩ => ⟨S4x16x2048x2048, .f32⟩
  | .hbm, ⟨23, _⟩ => ⟨S_, .f32⟩
  | .hbm, ⟨24, _⟩ => ⟨S4x16x2048, .f32⟩
  | .hbm, ⟨25, _⟩ => ⟨S4x16x2048x1, .f32⟩
  | .hbm, ⟨26, _⟩ => ⟨S4x16x2048x2048, .f32⟩
  | .hbm, ⟨27, _⟩ => ⟨S4x16x2048x2048, .f32⟩
  | .hbm, ⟨28, _⟩ => ⟨S4x16x2048x64, .f32⟩
  | _, _ => ⟨S4x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩

abbrev nD : Nat := 1
abbrev τ : Topo := Topo.v7x

variable {F : FTy → Type} [FloatOps F]

class Facts₀ : Prop where
  bcast_S_S4x16x2048x2048 : S_.BroadcastsInDim S4x16x2048x2048 (![] : Fin 0 → Fin S4x16x2048x2048.rank)
  bcast_S_S4x1x1x2048 : S_.BroadcastsInDim S4x1x1x2048 (![] : Fin 0 → Fin S4x1x1x2048.rank)
  bcast_S4x1x1x2048_S4x16x2048x2048_0_1_2_3 : S4x1x1x2048.BroadcastsInDim S4x16x2048x2048 (![0, 1, 2, 3] : Fin 4 → Fin S4x16x2048x2048.rank)
  reducesTo_S4x16x2048x2048_S4x16x2048_d3 : S4x16x2048x2048.ReducesTo [3] S4x16x2048
  h_S_ : 0 < S_.numel
  bcast_S_S4x16x2048 : S_.BroadcastsInDim S4x16x2048 (![] : Fin 0 → Fin S4x16x2048.rank)
  bcast_S4x16x2048_S4x16x2048x1_0_1_2 : S4x16x2048.BroadcastsInDim S4x16x2048x1 (![0, 1, 2] : Fin 3 → Fin S4x16x2048x1.rank)
  bcast_S4x16x2048x1_S4x16x2048x2048_0_1_2_3 : S4x16x2048x1.BroadcastsInDim S4x16x2048x2048 (![0, 1, 2, 3] : Fin 4 → Fin S4x16x2048x2048.rank)
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]

variable [Facts₀]

def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf

class Facts : Prop extends Facts₀ where

variable [Facts]
-- ==== Proof.Spec.lean ====
/-
  Masked scaled-dot-product attention, as one function of the four argument arrays, entry by entry, on the extended
  reals.

  For batch b, head h, query row r and key j the logit is (∑ d, q[b,h,r,d] · k[b,h,j,d]) · (1/8) + mask[b,0,0,j] · (−10⁹).
  A row of logits goes through the softmax: subtract the row's maximum (a fold of max from −∞), exponentiate, divide by
  the row's sum of exponentials. The attention weights are that softmax; the output is the weights' row times the value
  matrix, ∑ j, attn[b,h,r,j] · v[b,h,j,d]. The float literals stay as their words: both programs spell the same ones.
-/
import Idealize.ShloMosaic.PureOps.Ideal
import Idealize.ShloMosaic.Lib.ValueIdx

noncomputable section

open scoped BigOperators

namespace Cert.Attn

open Idealize.ShloMosaic Idealize.ShloMosaic.ValueIdx

/-- The queries', keys' and values' shape [4, 16, 2048, 64]. -/
abbrev SQ : Shape := ⟨4, ![4, 16, 2048, 64]⟩
/-- The mask's shape [4, 1, 1, 2048]. -/
abbrev SM : Shape := ⟨4, ![4, 1, 1, 2048]⟩
/-- The attention weights' shape [4, 16, 2048, 2048]. -/
abbrev SA : Shape := ⟨4, ![4, 16, 2048, 2048]⟩

/-- The logit scale 1/8, as its word. -/
abbrev eighth : EReal := Ideal.ofBits .f32 0x3E000000#32
/-- The weight −10⁹ a masked key's logit is pushed down by, as its word. -/
abbrev negBig : EReal := Ideal.ofBits .f32 0xCE6E6B28#32
/-- Negative infinity, as its word: where a row's maximum starts. -/
abbrev negInf : EReal := Ideal.ofBits .f32 0xFF800000#32

/-- The maximum of a row of logits, folded from negative infinity. -/
def rowMax {n : ℕ} (L : Fin n → EReal) : EReal := (Finset.univ : Finset (Fin n)).fold max negInf L

/-- A row's shifted exponentials: exp (L j − max L). -/
def rowExp {n : ℕ} (L : Fin n → EReal) (j : Fin n) : EReal := Ideal.exp (L j - rowMax L)

/-- The softmax of a row of logits. -/
def rowSoftmax {n : ℕ} (L : Fin n → EReal) (j : Fin n) : EReal := Ideal.div (rowExp L j) (∑ c : Fin n, rowExp L c)

/-- The logit of query row (b, h, r) against key j. -/
def logit (q k : SQ.Idx → EReal) (mask : SM.Idx → EReal) (b : Fin 4) (h : Fin 16) (r : Fin 2048) (j : Fin 2048) : EReal :=
  (∑ d : Fin 64, q (ix4 b h r d) * k (ix4 b h j d)) * eighth + mask (ix4 b (0 : Fin 1) (0 : Fin 1) j) * negBig

/-- The attention weight of query row (b, h, r) on key j. -/
def attnAt (q k : SQ.Idx → EReal) (mask : SM.Idx → EReal) (b : Fin 4) (h : Fin 16) (r : Fin 2048) (j : Fin 2048) : EReal :=
  rowSoftmax (logit q k mask b h r) j

/-- The output of query row (b, h, r) in feature d: the weights' row against the values' column. -/
def outAt (q k v : SQ.Idx → EReal) (mask : SM.Idx → EReal) (b : Fin 4) (h : Fin 16) (r : Fin 2048) (d : Fin 64) : EReal :=
  ∑ j : Fin 2048, attnAt q k mask b h r j * v (ix4 b h j d)

/-- The attention-weight array. -/
def attn (q k : SQ.Idx → EReal) (mask : SM.Idx → EReal) : SA.Idx → EReal := fun i =>
  attnAt q k mask ⟨(i 0).val, (i 0).isLt⟩ ⟨(i 1).val, (i 1).isLt⟩ ⟨(i 2).val, (i 2).isLt⟩ ⟨(i 3).val, (i 3).isLt⟩

/-- The output array. -/
def out (q k v : SQ.Idx → EReal) (mask : SM.Idx → EReal) : SQ.Idx → EReal := fun i =>
  outAt q k v mask ⟨(i 0).val, (i 0).isLt⟩ ⟨(i 1).val, (i 1).isLt⟩ ⟨(i 2).val, (i 2).isLt⟩ ⟨(i 3).val, (i 3).isLt⟩

theorem attn_ix4 (q k : SQ.Idx → EReal) (mask : SM.Idx → EReal) (b : Fin 4) (h : Fin 16) (r : Fin 2048) (j : Fin 2048) :
    attn q k mask (ix4 b h r j) = attnAt q k mask b h r j := rfl

theorem out_ix4 (q k v : SQ.Idx → EReal) (mask : SM.Idx → EReal) (b : Fin 4) (h : Fin 16) (r : Fin 2048) (d : Fin 64) :
    out q k v mask (ix4 b h r d) = outAt q k v mask b h r d := rfl

/-- Two rows of logits that agree entry by entry have the same softmax. -/
theorem rowSoftmax_congr {n : ℕ} {L L' : Fin n → EReal} (h : ∀ j, L j = L' j) (j : Fin n) :
    rowSoftmax L j = rowSoftmax L' j := by
  rw [show L = L' from funext h]

end Cert.Attn

end
-- ==== Proof.LibUnitAxes.lean ====
/-
  Two leading unit axes dropped by a shape cast, read at an index, for any extents: a [1, 1, a, b] array viewed as the
  [a, b] matrix reads at (i, j) the operand at (0, 0, i, j), and back; a [1, 1, 1, a] array viewed as the vector [a]
  reads at i the operand at (0, 0, 0, i). (The library has the one-leading-unit-axis forms.)
-/
import Idealize.ShloMosaic.Lib.Pipeline.Value
import Idealize.ShloMosaic.Lib.ValueIdx

namespace Idealize.ShloMosaic.UnitAxes

open Idealize.ShloMosaic Idealize.ShloMosaic.ValueIdx

variable {α : Type}

/-- A `[1, 1, a, b]` array cast to `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add, Nat.mul_one, Nat.add_zero])

/-- An `[a, b]` matrix cast to `[1, 1, a, b]` reads, at `(u, w, i, j)`, the operand at `(i, j)`. -/
theorem shapeCast_ab_11ab_apply {a b : ℕ} (x : (⟨2, ![a, b]⟩ : Shape).Idx → α)
    (h : (⟨2, ![a, b]⟩ : Shape).ShapeCasts ⟨4, ![1, 1, a, b]⟩) (u w : Fin 1) (i : Fin a) (j : Fin b) :
    shapeCast ⟨4, ![1, 1, a, b]⟩ x h (ix4 u w i j) = x (ix2 i j) :=
  shapeCast_apply x h _ _ (by
    have hu : u.val = 0 := by omega
    have hw : w.val = 0 := by omega
    rw [Shape.rowMajor_val_four, Shape.rowMajor_val_two]
    show i.val * b + j.val = ((u.val * 1 + w.val) * a + i.val) * b + j.val
    simp only [hu, hw, Nat.zero_mul, Nat.zero_add, Nat.mul_one, Nat.add_zero])

/-- A `[1, 1, 1, a]` array cast to `[a]` reads, at `i`, the operand at `(0, 0, 0, i)`. -/
theorem shapeCast_111a_a_apply {a : ℕ} (x : (⟨4, ![1, 1, 1, a]⟩ : Shape).Idx → α)
    (h : (⟨4, ![1, 1, 1, a]⟩ : Shape).ShapeCasts ⟨1, ![a]⟩) (i : Fin a) :
    shapeCast ⟨1, ![a]⟩ x h (ix1 i) = x (ix4 (0 : Fin 1) (0 : Fin 1) (0 : Fin 1) i) :=
  shapeCast_apply x h _ _ (by
    rw [Shape.rowMajor_val_four, Shape.rowMajor_val_one]
    show ((0 * 1 + 0) * 1 + 0) * a + i.val = i.val
    simp only [Nat.zero_mul, Nat.zero_add, Nat.mul_one, Nat.add_zero])

end Idealize.ShloMosaic.UnitAxes
-- ==== Proof.LibGram.lean ====
/-
  Three readings of a matrix at an index, on the extended reals, for any extents.

  * A product of an [n0, K] matrix with an [n1, K] matrix that contracts the LAST axis of both (a Gram-type product
    x · yᵀ) sums, at the result index (r, c), over the positions of a one-axis contraction shape; re-indexed by that
    axis' coordinate it is ∑ k < K, l (r, k) · r (c, k). Stated for any dimension record of those shapes: the record owes
    one contracting axis of extent K (axis 1 on both sides) and free axes that read the result's coordinates.
  * A lane maximum of an [n, k] matrix over its ROWS (axis 0), at column c, is the fold of max from the accumulator's
    value over the n entries of that column; over its COLUMNS (axis 1), at row r, the fold over the row's k entries.
-/
import Idealize.ShloMosaic.PureOps.Ideal.Laws
import Idealize.ShloMosaic.Lib.ValueIdx

noncomputable section

open scoped BigOperators

namespace Idealize.ShloMosaic.Gram

open Idealize.ShloMosaic Idealize.ShloMosaic.ValueIdx

/-- The contraction sum of x · yᵀ at a result index is the sum over the shared last coordinate. -/
theorem sum_contr_last {n0 n1 K : ℕ} {M : Type*} [AddCommMonoid M] [Mul M]
    (D : DotDims (⟨2, ![n0, K]⟩ : Shape) (⟨2, ![n1, K]⟩ : Shape) (⟨2, ![n0, n1]⟩ : Shape))
    (hr : D.contr.rank = 1) (hs : D.contr.size ⟨0, by omega⟩ = K)
    (hlc : D.lhsContracting = [1]) (hrc : D.rhsContracting = [1])
    (hl0 : ∀ j q, (D.lhsIdx j q 0).val = (j 0).val) (hr0 : ∀ j q, (D.rhsIdx j q 0).val = (j 1).val)
    (l : (⟨2, ![n0, K]⟩ : Shape).Idx → M) (r : (⟨2, ![n1, K]⟩ : Shape).Idx → M) (j : (⟨2, ![n0, n1]⟩ : Shape).Idx) :
    ∑ q : D.contr.Idx, l (D.lhsIdx j q) * r (D.rhsIdx j q) = ∑ k : Fin K, l (ix2 (j 0) k) * r (ix2 (j 1) k) := by
  rw [← Equiv.sum_comp (contrEquiv1 D K hr hs).symm]
  refine Finset.sum_congr rfl fun k _ => ?_
  have hk := contrEquiv1_symm_val D K hr hs k
  have h1 := D.lhsIdx_val_of_single hlc j ((contrEquiv1 D K hr hs).symm k)
  have h2 := D.rhsIdx_val_of_single hrc j ((contrEquiv1 D K hr hs).symm k)
  have el : D.lhsIdx j ((contrEquiv1 D K hr hs).symm k) = ix2 (j 0) k := funext fun a => Fin.ext (by
    match a with
    | ⟨0, _⟩ => exact hl0 _ _
    | ⟨1, _⟩ => exact h1.trans hk)
  have er : D.rhsIdx j ((contrEquiv1 D K hr hs).symm k) = ix2 (j 1) k := funext fun a => Fin.ext (by
    match a with
    | ⟨0, _⟩ => exact hr0 _ _
    | ⟨1, _⟩ => exact h2.trans hk)
  exact congrArg₂ (· * ·) (congrArg l el) (congrArg r er)

/-- The reduced index `c` with the row `r` put back is the matrix index `(r, c)`. -/
theorem lift_cols {n k : ℕ} (h : (⟨2, ![n, k]⟩ : Shape).Reduces [0] ⟨1, ![k]⟩) (c : Fin k) (r : Fin n) :
    h.lift (ix1 c) r = ix2 r c :=
  funext fun a => Fin.ext (by match a with | ⟨0, _⟩ => rfl | ⟨1, _⟩ => rfl)

/-- The reduced index `r` with the column `c` put back is the matrix index `(r, c)`. -/
theorem lift_rows {n k : ℕ} (h : (⟨2, ![n, k]⟩ : Shape).Reduces [1] ⟨1, ![n]⟩) (r : Fin n) (c : Fin k) :
    h.lift (ix1 r) c = ix2 r c :=
  funext fun a => Fin.ext (by match a with | ⟨0, _⟩ => rfl | ⟨1, _⟩ => rfl)

/-- A lane maximum over the rows of an `[n, k]` matrix, at column `c`: the fold of max over that column. -/
theorem multiReduction_max_cols_apply {n k : ℕ} (src : FVec Ideal ⟨2, ![n, k]⟩ .f32) (acc : BitVec 32)
    (h : (⟨2, ![n, k]⟩ : Shape).Reduces [0] ⟨1, ![k]⟩) (hφ : FKind.Formats .f32)
    (hacc : acc = FKind.maximumf.neutral .f32 hφ) (c : Fin k) :
    multiReduction .maximumf [0] ⟨1, ![k]⟩ src acc h hφ hacc (ix1 c)
      = (Finset.univ : Finset (Fin n)).fold max (Ideal.ofBits .f32 acc) (fun r => src (ix2 r c)) :=
  (Ideal.multiReduction_maximumf_single src acc h hφ hacc (ix1 c)).trans
    (Finset.fold_congr fun r _ => congrArg src (lift_cols h c r))

/-- A lane maximum over the columns of an `[n, k]` matrix, at row `r`: the fold of max over that row. -/
theorem multiReduction_max_rows_apply {n k : ℕ} (src : FVec Ideal ⟨2, ![n, k]⟩ .f32) (acc : BitVec 32)
    (h : (⟨2, ![n, k]⟩ : Shape).Reduces [1] ⟨1, ![n]⟩) (hφ : FKind.Formats .f32)
    (hacc : acc = FKind.maximumf.neutral .f32 hφ) (r : Fin n) :
    multiReduction .maximumf [1] ⟨1, ![n]⟩ src acc h hφ hacc (ix1 r)
      = (Finset.univ : Finset (Fin k)).fold max (Ideal.ofBits .f32 acc) (fun c => src (ix2 r c)) :=
  (Ideal.multiReduction_maximumf_single src acc h hφ hacc (ix1 r)).trans
    (Finset.fold_congr fun c _ => congrArg src (lift_rows h r c))

end Idealize.ShloMosaic.Gram

end
-- ==== Proof.LibContract.lean ====
/-
  A matrix product's contraction as a plain sum.

  A product of an [n0, K] matrix with a [K, n1] matrix whose dimension numbers contract the left operand's
  second axis with the right operand's first sums, at the result index (r, c), over the positions of a
  one-axis contraction shape. Re-indexed by that axis' coordinate it is the textbook sum
  ∑ k < K, l (r, k) · r (k, c). The statement is for any dimension record of those shapes: what the record
  owes is that it has one contracting axis of extent K (left axis 1, right axis 0) and that the two free
  axes read the result's coordinates.
-/
import Idealize.ShloMosaic.Lib.ValueIdx

noncomputable section

open scoped BigOperators

namespace Idealize.ShloMosaic.Contract2

open Idealize.ShloMosaic Idealize.ShloMosaic.ValueIdx

/-- The contraction sum of a matrix product at a result index is the sum over the shared coordinate. -/
theorem sum_contr_eq_sum_fin {n0 n1 K : ℕ} {M : Type*} [AddCommMonoid M] [Mul M]
    (D : DotDims (⟨2, ![n0, K]⟩ : Shape) (⟨2, ![K, n1]⟩ : Shape) (⟨2, ![n0, n1]⟩ : Shape))
    (hr : D.contr.rank = 1) (hs : D.contr.size ⟨0, by omega⟩ = K)
    (hlc : D.lhsContracting = [1]) (hrc : D.rhsContracting = [0])
    (hl0 : ∀ j q, (D.lhsIdx j q 0).val = (j 0).val) (hr1 : ∀ j q, (D.rhsIdx j q 1).val = (j 1).val)
    (l : (⟨2, ![n0, K]⟩ : Shape).Idx → M) (r : (⟨2, ![K, n1]⟩ : Shape).Idx → M) (j : (⟨2, ![n0, n1]⟩ : Shape).Idx) :
    ∑ q : D.contr.Idx, l (D.lhsIdx j q) * r (D.rhsIdx j q) = ∑ k : Fin K, l (ix2 (j 0) k) * r (ix2 k (j 1)) := by
  rw [← Equiv.sum_comp (contrEquiv1 D K hr hs).symm]
  refine Finset.sum_congr rfl fun k _ => ?_
  have hk := contrEquiv1_symm_val D K hr hs k
  have h1 := D.lhsIdx_val_of_single hlc j ((contrEquiv1 D K hr hs).symm k)
  have h2 := D.rhsIdx_val_of_single hrc j ((contrEquiv1 D K hr hs).symm k)
  have el : D.lhsIdx j ((contrEquiv1 D K hr hs).symm k) = ix2 (j 0) k := funext fun a => Fin.ext (by
    match a with
    | ⟨0, _⟩ => exact hl0 _ _
    | ⟨1, _⟩ => exact h1.trans hk)
  have er : D.rhsIdx j ((contrEquiv1 D K hr hs).symm k) = ix2 k (j 1) := funext fun a => Fin.ext (by
    match a with
    | ⟨0, _⟩ => exact h2.trans hk
    | ⟨1, _⟩ => exact hr1 _ _)
  exact congrArg₂ (· * ·) (congrArg l el) (congrArg r er)

end Idealize.ShloMosaic.Contract2

end
-- ==== Proof.LibRowSum.lean ====
/-
  A sum along the rows of a matrix, read at an index on the extended reals: a lane reduction of an [n, k] matrix
  over its columns, into the zero accumulator, is at row r the sum over the k columns of the row's entries.
-/
import Idealize.ShloMosaic.PureOps.Ideal.Laws
import Idealize.ShloMosaic.Lib.ValueIdx

namespace Idealize.ShloMosaic.ValueIdx

open Idealize.ShloMosaic

/-- The reduced index `r` with the column `d` put back is the matrix index `(r, d)`. -/
theorem lift_rows {n k : ℕ} (h : (⟨2, ![n, k]⟩ : Shape).Reduces [1] ⟨1, ![n]⟩) (r : Fin n) (d : Fin k) :
    h.lift (ix1 r) d = ix2 r d :=
  funext fun a => Fin.ext (by match a with | ⟨0, _⟩ => rfl | ⟨1, _⟩ => rfl)

/-- A float lane sum over the columns of an `[n, k]` matrix, at row `r`, is the sum of the row's `k` entries. -/
theorem multiReduction_add_rows_apply {n k : ℕ} (src : FVec Ideal ⟨2, ![n, k]⟩ .f32)
    (h : (⟨2, ![n, k]⟩ : Shape).Reduces [1] ⟨1, ![n]⟩) (hφ : FKind.Formats .f32)
    (hacc : (0x00000000#32 : BitVec 32) = FKind.add.neutral .f32 hφ) (r : Fin n) :
    multiReduction .add [1] ⟨1, ![n]⟩ src 0x00000000#32 h hφ hacc (ix1 r) = ∑ d : Fin k, src (ix2 r d) :=
  (Ideal.multiReduction_add_single src 0x00000000#32 h hφ hacc (ix1 r)).trans
    (Finset.sum_congr rfl fun d _ => congrArg src (lift_rows h r d))

end Idealize.ShloMosaic.ValueIdx
-- ==== Proof.LibColumn.lean ====
/-
  A column kept as a unit trailing axis (what `jnp.sum(…, keepdims=True)` over the last axis produces), read at an
  index: a vector of length a viewed as an [a, 1] column, and an [a, 1] column broadcast along the rows of an
  [a, b] matrix. (The library has the leading-unit-axis forms and the row broadcast [1, b] → [a, b]; these are the
  trailing-unit-axis counterparts, for any extents.)
-/
import Idealize.ShloMosaic.Lib.Pipeline.Value
import Idealize.ShloMosaic.Lib.ValueIdx

namespace Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.Body.lean ====
/-
  What the kernel body computes from the blocks it loads, entry by entry, on the extended reals.

  The body loads a 512-row block of queries, the head's whole 2048-row key and value matrices and the batch's mask
  row. Its logits are the query block times the transposed keys, scaled by 1/8, plus the mask row times −10⁹ spread
  over the 512 rows; each row of logits then goes through the softmax (row maximum, shifted exponentials, row sum,
  quotient). The weights it stores are that softmax; the output block is the weights times the values.
-/
import proofs.«152726_j35673998361132_1_alg».proof.Proof.Gen.KernelIdeal.Skeleton
import proofs.«152726_j35673998361132_1_alg».proof.Proof.Spec
import proofs.«152726_j35673998361132_1_alg».proof.Proof.LibUnitAxes
import proofs.«152726_j35673998361132_1_alg».proof.Proof.LibGram
import proofs.«152726_j35673998361132_1_alg».proof.Proof.LibContract
import proofs.«152726_j35673998361132_1_alg».proof.Proof.LibRowSum
import proofs.«152726_j35673998361132_1_alg».proof.Proof.LibColumn
import Idealize.ShloMosaic.Lib.ValueLayout
import Idealize.ShloMosaic.Lib.Pipeline.Value
import Idealize.ShloMosaic.PureOps.Ideal.Laws

noncomputable section

open scoped BigOperators

namespace Cert.Attn.Body

open Cert.KernelIdeal Cert.KernelIdeal.Gen Idealize.ShloMosaic Idealize.ShloMosaic.ValueIdx Cert.Attn

/-! ## The logits of a block -/

/-- The logit of the block's query row `r` against key `j`, from the loaded blocks. -/
def blockLogit (P0 : Vec Ideal S1x1x512x64 .f32) (P1 : Vec Ideal S1x1x2048x64 .f32) (P2 : Vec Ideal S1x1x1x2048 .f32)
    (r : Fin 512) (j : Fin 2048) : EReal :=
  (∑ d : Fin 64, P0 (ix4 (0 : Fin 1) (0 : Fin 1) r d) * P1 (ix4 (0 : Fin 1) (0 : Fin 1) j d)) * eighth
    + P2 (ix4 (0 : Fin 1) (0 : Fin 1) (0 : Fin 1) j) * negBig

/-- The product's dimension record: queries [512, 64] against transposed keys [64, 2048]. -/
abbrev Dqk : DotDims S512x64 S64x2048 S512x2048 := dot_S512x64_S64x2048_S512x2048_1_0_0_1_n_n
/-- The product's dimension record: weights [512, 2048] against values [2048, 64]. -/
abbrev Dav : DotDims S512x2048 S2048x64 S512x64 := dot_S512x2048_S2048x64_S512x64_1_0_0_1_n_n

theorem qk_lhs0 (j : S512x2048.Idx) (q : Dqk.contr.Idx) : (Dqk.lhsIdx j q 0).val = (j 0).val := by
  unfold DotDims.lhsIdx
  rw [dif_neg (show ¬(0 : Fin S512x64.rank) ∈ Dqk.lhsBatch by decide), dif_pos (show (0 : Fin S512x64.rank) ∈ Dqk.lhsNonContracting by decide)]
  rfl

theorem qk_rhs1 (j : S512x2048.Idx) (q : Dqk.contr.Idx) : (Dqk.rhsIdx j q 1).val = (j 1).val := by
  unfold DotDims.rhsIdx
  rw [dif_neg (show ¬(1 : Fin S64x2048.rank) ∈ Dqk.rhsBatch by decide), dif_pos (show (1 : Fin S64x2048.rank) ∈ Dqk.rhsNonContracting by decide)]
  rfl

theorem av_lhs0 (j : S512x64.Idx) (q : Dav.contr.Idx) : (Dav.lhsIdx j q 0).val = (j 0).val := by
  unfold DotDims.lhsIdx
  rw [dif_neg (show ¬(0 : Fin S512x2048.rank) ∈ Dav.lhsBatch by decide), dif_pos (show (0 : Fin S512x2048.rank) ∈ Dav.lhsNonContracting by decide)]
  rfl

theorem av_rhs1 (j : S512x64.Idx) (q : Dav.contr.Idx) : (Dav.rhsIdx j q 1).val = (j 1).val := by
  unfold DotDims.rhsIdx
  rw [dif_neg (show ¬(1 : Fin S2048x64.rank) ∈ Dav.rhsBatch by decide), dif_pos (show (1 : Fin S2048x64.rank) ∈ Dav.rhsNonContracting by decide)]
  rfl

/-- The body's logits, as its tree of vector operations over the loaded blocks. -/
def logitsVec (P0 : Vec Ideal S1x1x512x64 .f32) (P1 : Vec Ideal S1x1x2048x64 .f32) (P2 : Vec Ideal S1x1x1x2048 .f32) :
    FVec Ideal S512x2048 .f32 :=
  addf
    (mulf
      (matmul Dqk none (shapeCast S512x64 P0 shapeCasts_S1x1x512x64_S512x64 : FVec Ideal S512x64 .f32)
        (transpose S64x2048 [1, 0] (shapeCast S2048x64 P1 shapeCasts_S1x1x2048x64_S2048x64 : FVec Ideal S2048x64 .f32)
          transposes_S2048x64_p1_0_S64x2048)
        (constant (F := Ideal) S512x2048 .f32 0x00000000#32))
      (broadcast S512x2048 (Scalar.ofBits (F := Ideal) .f32 0x3E000000#32)))
    (broadcastTo S512x2048
      (mulf (shapeCast S1x2048 (shapeCast S2048 P2 shapeCasts_S1x1x1x2048_S2048 : FVec Ideal S2048 .f32) shapeCasts_S2048_S1x2048)
        (broadcast S1x2048 (Scalar.ofBits (F := Ideal) .f32 0xCE6E6B28#32)))
      broadcasts_S1x2048_S512x2048)

/-- The body's logits at (r, j). -/
theorem logitsVec_apply (P0 : Vec Ideal S1x1x512x64 .f32) (P1 : Vec Ideal S1x1x2048x64 .f32) (P2 : Vec Ideal S1x1x1x2048 .f32)
    (r : Fin 512) (j : Fin 2048) : logitsVec P0 P1 P2 (ix2 r j) = blockLogit P0 P1 P2 r j := by
  unfold logitsVec blockLogit
  rw [addf_apply, mulf_apply, broadcast_apply, broadcastTo_1b_ab_apply, mulf_apply, broadcast_apply,
    shapeCast_a_1a_apply, UnitAxes.shapeCast_111a_a_apply]
  show FloatOps.matmul Dqk none _ _ (constant (F := Ideal) S512x2048 .f32 0x00000000#32) (ix2 r j) * eighth + _ = _
  rw [Ideal.matmul_constant_zero_apply, Contract2.sum_contr_eq_sum_fin Dqk rfl rfl rfl rfl qk_lhs0 qk_rhs1]
  refine congrArg₂ (· + ·) (congrArg (· * eighth) (Finset.sum_congr rfl fun d _ => ?_)) rfl
  show (shapeCast S512x64 P0 shapeCasts_S1x1x512x64_S512x64 : FVec Ideal S512x64 .f32) (ix2 r d)
      * transpose S64x2048 [1, 0] (shapeCast S2048x64 P1 shapeCasts_S1x1x2048x64_S2048x64 : FVec Ideal S2048x64 .f32)
          transposes_S2048x64_p1_0_S64x2048 (ix2 d j) = _
  rw [UnitAxes.shapeCast_11ab_ab_apply, transpose_ix2_apply, UnitAxes.shapeCast_11ab_ab_apply]

/-! ## The softmax of the rows -/

/-- The body's shifted exponentials of a logit matrix: row maximum kept as a column, spread, subtracted, exponentiated. -/
def expShift (X : FVec Ideal S512x2048 .f32) : FVec Ideal S512x2048 .f32 :=
  exp (subf X (broadcastTo S512x2048
    (shapeCast S512x1 (multiReduction .maximumf [1] S512 X 0xFF800000#32 reduces_S512x2048_S512 (.inl rfl) rfl) shapeCasts_S512_S512x1)
    broadcasts_S512x1_S512x2048))

/-- The body's softmax of a logit matrix: shifted exponentials over their row sums. -/
def softmaxVec (X : FVec Ideal S512x2048 .f32) : FVec Ideal S512x2048 .f32 :=
  divf (expShift X) (broadcastTo S512x2048
    (shapeCast S512x1 (multiReduction .add [1] S512 (expShift X) 0x00000000#32 reduces_S512x2048_S512 (.inl rfl) rfl) shapeCasts_S512_S512x1)
    broadcasts_S512x1_S512x2048)

theorem expShift_apply (X : FVec Ideal S512x2048 .f32) (r : Fin 512) (j : Fin 2048) :
    expShift X (ix2 r j) = rowExp (fun c => X (ix2 r c)) j := by
  unfold expShift rowExp rowMax
  show Ideal.exp (X (ix2 r j) - broadcastTo S512x2048 _ broadcasts_S512x1_S512x2048 (ix2 r j)) = _
  rw [broadcastTo_a1_ab_apply, shapeCast_a_a1_apply]
  exact congrArg (fun z => Ideal.exp (X (ix2 r j) - z))
    (Gram.multiReduction_max_rows_apply X 0xFF800000#32 reduces_S512x2048_S512 (.inl rfl) rfl r)

theorem softmaxVec_apply (X : FVec Ideal S512x2048 .f32) (r : Fin 512) (j : Fin 2048) :
    softmaxVec X (ix2 r j) = rowSoftmax (fun c => X (ix2 r c)) j := by
  unfold softmaxVec rowSoftmax
  rw [divf_apply, broadcastTo_a1_ab_apply, shapeCast_a_a1_apply]
  refine congrArg₂ Ideal.div (expShift_apply X r j) ?_
  refine (multiReduction_add_rows_apply (expShift X) reduces_S512x2048_S512 (.inl rfl) rfl r).trans ?_
  exact Finset.sum_congr rfl fun c _ => expShift_apply X r c

/-! ## The two stored values -/

set_option maxRecDepth 65536 in
/-- The weights the body stores are the softmax of its logits. -/
theorem pay2_eq (P0 : Vec Ideal S1x1x512x64 .f32) (P1 : Vec Ideal S1x1x2048x64 .f32) (P2 : Vec Ideal S1x1x1x2048 .f32) :
    k0_pay2 (F := Ideal) P0 P1 P2 = softmaxVec (logitsVec P0 P1 P2) := rfl

/-- The stored weight at (r, j): the softmax of row r's logits at key j. -/
theorem pay2_apply (P0 : Vec Ideal S1x1x512x64 .f32) (P1 : Vec Ideal S1x1x2048x64 .f32) (P2 : Vec Ideal S1x1x1x2048 .f32)
    (r : Fin 512) (j : Fin 2048) :
    k0_pay2 (F := Ideal) P0 P1 P2 (ix2 r j) = rowSoftmax (blockLogit P0 P1 P2 r) j := by
  rw [pay2_eq, softmaxVec_apply]
  exact rowSoftmax_congr (fun c => logitsVec_apply P0 P1 P2 r c) j

/-- The stored output at (r, d): row r's weights against column d of the values. -/
theorem pay4_apply (P0 : Vec Ideal S1x1x512x64 .f32) (P1 : Vec Ideal S1x1x2048x64 .f32) (P2 : Vec Ideal S1x1x2048x64 .f32)
    (P3 : Vec Ideal S1x1x1x2048 .f32) (r : Fin 512) (d : Fin 64) :
    k0_pay4 (F := Ideal) P0 P1 P2 P3 (ix2 r d)
      = ∑ j : Fin 2048, rowSoftmax (blockLogit P0 P1 P3 r) j * P2 (ix4 (0 : Fin 1) (0 : Fin 1) j d) := by
  unfold k0_pay4
  show FloatOps.matmul Dav none (k0_pay2 (F := Ideal) P0 P1 P3)
      (shapeCast S2048x64 P2 shapeCasts_S1x1x2048x64_S2048x64 : FVec Ideal S2048x64 .f32)
      (constant (F := Ideal) S512x64 .f32 0x00000000#32) (ix2 r d) = _
  rw [Ideal.matmul_constant_zero_apply, Contract2.sum_contr_eq_sum_fin Dav rfl rfl rfl rfl av_lhs0 av_rhs1]
  refine Finset.sum_congr rfl fun j _ => ?_
  show k0_pay2 (F := Ideal) P0 P1 P3 (ix2 r j)
      * (shapeCast S2048x64 P2 shapeCasts_S1x1x2048x64_S2048x64 : FVec Ideal S2048x64 .f32) (ix2 j d) = _
  rw [pay2_apply, UnitAxes.shapeCast_11ab_ab_apply]

end Cert.Attn.Body

end
-- ==== Proof.Blocks.lean ====
/-
  From the kernel's blocks to its two result arrays.

  The grid has 4 · 16 · 4 points; point t works on batch t / 64, head (t / 4) mod 16 and the 512 query rows starting at
  512 · (t mod 4). There it loads those query rows, the head's whole key and value matrices and the batch's mask row,
  and writes back the matching 512 rows of the weights and of the output. The loaded blocks are restrictions of the
  argument arrays, so what a point writes back is the matching block of the specification's arrays; the written
  blocks cover each result array, so the arrays end holding the specification.
-/
import proofs.«152726_j35673998361132_1_alg».proof.Proof.Gen.KernelIdeal.Value
import proofs.«152726_j35673998361132_1_alg».proof.Proof.Body
import Idealize.ShloMosaic.Lib.Pipeline.Value

noncomputable section

open scoped BigOperators

namespace Cert.Attn.Blocks

open Cert.KernelIdeal Cert.KernelIdeal.Gen Idealize.ShloMosaic Idealize.ShloMosaic.TcCoe Idealize.SL.Sem
open Idealize.ShloMosaic.ValueIdx Cert.Attn Cert.Attn.Body
open Idealize.ShloMosaic.Pipeline (Dat)

/-! ## A block's entries against the specification's, over variables -/

/-- When the loaded blocks are the rows `512·qi + ·` of the queries, the head's keys and the batch's mask row, the
    stored weight at (r, j) is the specification's weight of row `512·qi + r` on key j. -/
theorem attn_block (q k : SQ.Idx → EReal) (mask : SM.Idx → EReal)
    (P0 : Vec Ideal S1x1x512x64 .f32) (P1 : Vec Ideal S1x1x2048x64 .f32) (P2 : Vec Ideal S1x1x1x2048 .f32)
    (b : Fin 4) (h : Fin 16) (R : Fin 512 → Fin 2048)
    (h0 : ∀ (r : Fin 512) (d : Fin 64), P0 (ix4 (0 : Fin 1) (0 : Fin 1) r d) = q (ix4 b h (R r) d))
    (h1 : ∀ (j : Fin 2048) (d : Fin 64), P1 (ix4 (0 : Fin 1) (0 : Fin 1) j d) = k (ix4 b h j d))
    (h2 : ∀ j : Fin 2048, P2 (ix4 (0 : Fin 1) (0 : Fin 1) (0 : Fin 1) j) = mask (ix4 b (0 : Fin 1) (0 : Fin 1) j))
    (r : Fin 512) (j : Fin 2048) :
    k0_pay2 (F := Ideal) P0 P1 P2 (ix2 r j) = attnAt q k mask b h (R r) j := by
  rw [pay2_apply]
  unfold attnAt
  refine rowSoftmax_congr (fun c => ?_) j
  unfold blockLogit logit
  rw [h2 c]
  exact congrArg (fun s => s * eighth + mask (ix4 b (0 : Fin 1) (0 : Fin 1) c) * negBig)
    (Finset.sum_congr rfl fun d _ => by rw [h0 r d, h1 c d])

/-- Likewise the stored output at (r, d) is the specification's output of row `512·qi + r` in feature d. -/
theorem out_block (q k v : SQ.Idx → EReal) (mask : SM.Idx → EReal)
    (P0 : Vec Ideal S1x1x512x64 .f32) (P1 : Vec Ideal S1x1x2048x64 .f32) (P2 : Vec Ideal S1x1x2048x64 .f32)
    (P3 : Vec Ideal S1x1x1x2048 .f32)
    (b : Fin 4) (h : Fin 16) (R : Fin 512 → Fin 2048)
    (h0 : ∀ (r : Fin 512) (d : Fin 64), P0 (ix4 (0 : Fin 1) (0 : Fin 1) r d) = q (ix4 b h (R r) d))
    (h1 : ∀ (j : Fin 2048) (d : Fin 64), P1 (ix4 (0 : Fin 1) (0 : Fin 1) j d) = k (ix4 b h j d))
    (hv : ∀ (j : Fin 2048) (d : Fin 64), P2 (ix4 (0 : Fin 1) (0 : Fin 1) j d) = v (ix4 b h j d))
    (h2 : ∀ j : Fin 2048, P3 (ix4 (0 : Fin 1) (0 : Fin 1) (0 : Fin 1) j) = mask (ix4 b (0 : Fin 1) (0 : Fin 1) j))
    (r : Fin 512) (d : Fin 64) :
    k0_pay4 (F := Ideal) P0 P1 P2 P3 (ix2 r d) = outAt q k v mask b h (R r) d := by
  rw [pay4_apply]
  unfold outAt
  refine Finset.sum_congr rfl fun j _ => ?_
  rw [← pay2_apply, attn_block q k mask P0 P1 P3 b h R h0 h1 h2 r j, hv j d]

/-! ## The index maps over the grid -/

variable (m : (ℓ : Loc nD τ sig) → Buf (Elt Ideal) ℓ) (ρ : Dev nD → PrngReg)

theorem hz4 : (![0, 0, 0, 0] : Fin 4 → Nat) = fun _ => 0 := funext fun a => by fin_cases a <;> rfl

/-- The printed index maps in closed form, decided over the grid: batch t / 64, head (t / 4) mod 16, query tile t mod 4. -/
theorem idx_closed : ∀ t : Fin cfg0.N,
    win0_0.index t (0 : Fin 4) = t.val / 64 ∧ win0_0.index t (1 : Fin 4) = t.val / 4 % 16
    ∧ win0_0.index t (2 : Fin 4) = t.val % 4 ∧ win0_0.index t (3 : Fin 4) = 0
    ∧ win0_1.index t (0 : Fin 4) = t.val / 64 ∧ win0_1.index t (1 : Fin 4) = t.val / 4 % 16
    ∧ win0_1.index t (2 : Fin 4) = 0 ∧ win0_1.index t (3 : Fin 4) = 0
    ∧ win0_2.index t (0 : Fin 4) = t.val / 64 ∧ win0_2.index t (1 : Fin 4) = t.val / 4 % 16
    ∧ win0_2.index t (2 : Fin 4) = 0 ∧ win0_2.index t (3 : Fin 4) = 0
    ∧ win0_3.index t (0 : Fin 4) = t.val / 64 ∧ win0_3.index t (1 : Fin 4) = 0
    ∧ win0_3.index t (2 : Fin 4) = 0 ∧ win0_3.index t (3 : Fin 4) = 0
    ∧ win0_4.index t (0 : Fin 4) = t.val / 64 ∧ win0_4.index t (1 : Fin 4) = t.val / 4 % 16
    ∧ win0_4.index t (2 : Fin 4) = t.val % 4 ∧ win0_4.index t (3 : Fin 4) = 0
    ∧ win0_5.index t (0 : Fin 4) = t.val / 64 ∧ win0_5.index t (1 : Fin 4) = t.val / 4 % 16
    ∧ win0_5.index t (2 : Fin 4) = t.val % 4 ∧ win0_5.index t (3 : Fin 4) = 0 :=
  (by decide +kernel : ∀ t : Fin grid0.N, _)

/-- Point t's batch, head and first query row. -/
def batchOf (t : Fin cfg0.N) : Fin 4 := ⟨t.val / 64, by have := t.isLt; have hN : cfg0.N = 256 := N_0; omega⟩
def headOf (t : Fin cfg0.N) : Fin 16 := ⟨t.val / 4 % 16, by omega⟩
def rowOf (t : Fin cfg0.N) (r : Fin 512) : Fin 2048 := ⟨t.val % 4 * 512 + r.val, by have := r.isLt; omega⟩

/-! ## The loaded blocks are restrictions of the argument arrays -/

theorem iblk0_apply (c : Dev nD) (t : Fin cfg0.N) (r : Fin 512) (d : Fin 64) :
    (iblk m c 0 t : Vec Ideal S1x1x512x64 .f32) (ix4 (0 : Fin 1) (0 : Fin 1) r d)
      = (V m c main_arg0 : SQ.Idx → EReal) (ix4 (batchOf t) (headOf t) (rowOf t r) d) := by
  obtain ⟨e0, e1, e2, e3, -⟩ := idx_closed t
  show (V m c main_arg0 : SQ.Idx → EReal) (((cfg0.win 0).blk t).view.emb (ix4 (0 : Fin 1) (0 : Fin 1) r d)) = _
  refine congrArg (V m c main_arg0 : SQ.Idx → EReal) (funext fun a => Fin.ext ?_)
  match a with
  | ⟨0, _⟩ => show win0_0.index t (0 : Fin 4) * 1 + 1 * 0 = t.val / 64; omega
  | ⟨1, _⟩ => show win0_0.index t (1 : Fin 4) * 1 + 1 * 0 = t.val / 4 % 16; omega
  | ⟨2, _⟩ => show win0_0.index t (2 : Fin 4) * 512 + 1 * r.val = t.val % 4 * 512 + r.val; omega
  | ⟨3, _⟩ => show win0_0.index t (3 : Fin 4) * 64 + 1 * d.val = d.val; omega

theorem iblk1_apply (c : Dev nD) (t : Fin cfg0.N) (j : Fin 2048) (d : Fin 64) :
    (iblk m c 1 t : Vec Ideal S1x1x2048x64 .f32) (ix4 (0 : Fin 1) (0 : Fin 1) j d)
      = (V m c main_arg1 : SQ.Idx → EReal) (ix4 (batchOf t) (headOf t) j d) := by
  obtain ⟨-, -, -, -, e0, e1, e2, e3, -⟩ := idx_closed t
  show (V m c main_arg1 : SQ.Idx → EReal) (((cfg0.win 1).blk t).view.emb (ix4 (0 : Fin 1) (0 : Fin 1) j d)) = _
  refine congrArg (V m c main_arg1 : SQ.Idx → EReal) (funext fun a => Fin.ext ?_)
  match a with
  | ⟨0, _⟩ => show win0_1.index t (0 : Fin 4) * 1 + 1 * 0 = t.val / 64; omega
  | ⟨1, _⟩ => show win0_1.index t (1 : Fin 4) * 1 + 1 * 0 = t.val / 4 % 16; omega
  | ⟨2, _⟩ => show win0_1.index t (2 : Fin 4) * 2048 + 1 * j.val = j.val; omega
  | ⟨3, _⟩ => show win0_1.index t (3 : Fin 4) * 64 + 1 * d.val = d.val; omega

theorem iblk2_apply (c : Dev nD) (t : Fin cfg0.N) (j : Fin 2048) (d : Fin 64) :
    (iblk m c 2 t : Vec Ideal S1x1x2048x64 .f32) (ix4 (0 : Fin 1) (0 : Fin 1) j d)
      = (V m c main_arg2 : SQ.Idx → EReal) (ix4 (batchOf t) (headOf t) j d) := by
  obtain ⟨-, -, -, -, -, -, -, -, e0, e1, e2, e3, -⟩ := idx_closed t
  show (V m c main_arg2 : SQ.Idx → EReal) (((cfg0.win 2).blk t).view.emb (ix4 (0 : Fin 1) (0 : Fin 1) j d)) = _
  refine congrArg (V m c main_arg2 : SQ.Idx → EReal) (funext fun a => Fin.ext ?_)
  match a with
  | ⟨0, _⟩ => show win0_2.index t (0 : Fin 4) * 1 + 1 * 0 = t.val / 64; omega
  | ⟨1, _⟩ => show win0_2.index t (1 : Fin 4) * 1 + 1 * 0 = t.val / 4 % 16; omega
  | ⟨2, _⟩ => show win0_2.index t (2 : Fin 4) * 2048 + 1 * j.val = j.val; omega
  | ⟨3, _⟩ => show win0_2.index t (3 : Fin 4) * 64 + 1 * d.val = d.val; omega

theorem iblk3_apply (c : Dev nD) (t : Fin cfg0.N) (j : Fin 2048) :
    (iblk m c 3 t : Vec Ideal S1x1x1x2048 .f32) (ix4 (0 : Fin 1) (0 : Fin 1) (0 : Fin 1) j)
      = (V m c main_arg3 : SM.Idx → EReal) (ix4 (batchOf t) (0 : Fin 1) (0 : Fin 1) j) := by
  obtain ⟨-, -, -, -, -, -, -, -, -, -, -, -, e0, e1, e2, e3, -⟩ := idx_closed t
  show (V m c main_arg3 : SM.Idx → EReal) (((cfg0.win 3).blk t).view.emb (ix4 (0 : Fin 1) (0 : Fin 1) (0 : Fin 1) j)) = _
  refine congrArg (V m c main_arg3 : SM.Idx → EReal) (funext fun a => Fin.ext ?_)
  match a with
  | ⟨0, _⟩ => show win0_3.index t (0 : Fin 4) * 1 + 1 * 0 = t.val / 64; omega
  | ⟨1, _⟩ => show win0_3.index t (1 : Fin 4) * 1 + 1 * 0 = 0; omega
  | ⟨2, _⟩ => show win0_3.index t (2 : Fin 4) * 1 + 1 * 0 = 0; omega
  | ⟨3, _⟩ => show win0_3.index t (3 : Fin 4) * 2048 + 1 * j.val = j.val; omega

/-! ## What a point writes back -/

/-- An entry of the weights' block at point t is the specification's weight at the array index under it. -/
theorem block5_entry (c : Dev nD) (t : Fin cfg0.N) (y : S1x1x512x2048.Idx) :
    k0_pay2 (F := Ideal) (iblk m c 0 t) (iblk m c 1 t) (iblk m c 3 t) (Value.ix5_0 y)
      = attn (V m c main_arg0) (V m c main_arg1) (V m c main_arg3) (((cfg0.win 5).blk t).view.emb y) := by
  obtain ⟨-, -, -, -, -, -, -, -, -, -, -, -, -, -, -, -, -, -, -, -, e0, e1, e2, e3⟩ := idx_closed t
  have hy0 : (y 0).val < 1 := (y 0).isLt
  have hy1 : (y 1).val < 1 := (y 1).isLt
  have hy2 : (y 2).val < 512 := (y 2).isLt
  have hy3 : (y 3).val < 2048 := (y 3).isLt
  have hix : Value.ix5_0 y = ix2 (⟨(y 2).val, hy2⟩ : Fin 512) (⟨(y 3).val, hy3⟩ : Fin 2048) :=
    funext fun a => Fin.ext (by match a with | ⟨0, _⟩ => rfl | ⟨1, _⟩ => rfl)
  have hemb : (((cfg0.win 5).blk t).view.emb y : SA.Idx)
      = ix4 (batchOf t) (headOf t) (rowOf t ⟨(y 2).val, hy2⟩) (⟨(y 3).val, hy3⟩ : Fin 2048) :=
    funext fun a => Fin.ext (by
      match a with
      | ⟨0, _⟩ => show win0_5.index t (0 : Fin 4) * 1 + 1 * (y 0).val = t.val / 64; omega
      | ⟨1, _⟩ => show win0_5.index t (1 : Fin 4) * 1 + 1 * (y 1).val = t.val / 4 % 16; omega
      | ⟨2, _⟩ => show win0_5.index t (2 : Fin 4) * 512 + 1 * (y 2).val = t.val % 4 * 512 + (y 2).val; omega
      | ⟨3, _⟩ => show win0_5.index t (3 : Fin 4) * 2048 + 1 * (y 3).val = (y 3).val; omega)
  rw [hix, hemb, attn_ix4]
  exact attn_block (V m c main_arg0) (V m c main_arg1) (V m c main_arg3) (iblk m c 0 t) (iblk m c 1 t) (iblk m c 3 t)
    (batchOf t) (headOf t) (rowOf t) (iblk0_apply m c t) (iblk1_apply m c t) (iblk3_apply m c t) _ _

/-- An entry of the output's block at point t is the specification's output at the array index under it. -/
theorem block4_entry (c : Dev nD) (t : Fin cfg0.N) (y : S1x1x512x64.Idx) :
    k0_pay4 (F := Ideal) (iblk m c 0 t) (iblk m c 1 t) (iblk m c 2 t) (iblk m c 3 t) (Value.ix4_0 y)
      = out (V m c main_arg0) (V m c main_arg1) (V m c main_arg2) (V m c main_arg3) (((cfg0.win 4).blk t).view.emb y) := by
  obtain ⟨-, -, -, -, -, -, -, -, -, -, -, -, -, -, -, -, e0, e1, e2, e3, -⟩ := idx_closed t
  have hy0 : (y 0).val < 1 := (y 0).isLt
  have hy1 : (y 1).val < 1 := (y 1).isLt
  have hy2 : (y 2).val < 512 := (y 2).isLt
  have hy3 : (y 3).val < 64 := (y 3).isLt
  have hix : Value.ix4_0 y = ix2 (⟨(y 2).val, hy2⟩ : Fin 512) (⟨(y 3).val, hy3⟩ : Fin 64) :=
    funext fun a => Fin.ext (by match a with | ⟨0, _⟩ => rfl | ⟨1, _⟩ => rfl)
  have hemb : (((cfg0.win 4).blk t).view.emb y : SQ.Idx)
      = ix4 (batchOf t) (headOf t) (rowOf t ⟨(y 2).val, hy2⟩) (⟨(y 3).val, hy3⟩ : Fin 64) :=
    funext fun a => Fin.ext (by
      match a with
      | ⟨0, _⟩ => show win0_4.index t (0 : Fin 4) * 1 + 1 * (y 0).val = t.val / 64; omega
      | ⟨1, _⟩ => show win0_4.index t (1 : Fin 4) * 1 + 1 * (y 1).val = t.val / 4 % 16; omega
      | ⟨2, _⟩ => show win0_4.index t (2 : Fin 4) * 512 + 1 * (y 2).val = t.val % 4 * 512 + (y 2).val; omega
      | ⟨3, _⟩ => show win0_4.index t (3 : Fin 4) * 64 + 1 * (y 3).val = (y 3).val; omega)
  rw [hix, hemb, out_ix4]
  exact out_block (V m c main_arg0) (V m c main_arg1) (V m c main_arg2) (V m c main_arg3)
    (iblk m c 0 t) (iblk m c 1 t) (iblk m c 2 t) (iblk m c 3 t)
    (batchOf t) (headOf t) (rowOf t) (iblk0_apply m c t) (iblk1_apply m c t) (iblk2_apply m c t) (iblk3_apply m c t) _ _

/-- What point t writes back to the weights' array is block t of the specification's weights. -/
theorem flushed5_eq (c : Dev nD) (t : Fin cfg0.N) :
    (dats m 0 c).flushed 5 t
      = ((cfg0.win 5).blk t).view.read (Elt Ideal) (attn (V m c main_arg0) (V m c main_arg1) (V m c main_arg3)) := by
  rw [Value.flushed5]
  unfold out0_5
  simp only [View.ld_unit_zero (S := S1x1x512x64) hz4, View.ld_unit_zero (S := S1x1x2048x64) hz4,
    View.ld_unit_zero (S := S1x1x1x2048) hz4]
  funext y
  show View.canon (Val := Elt Ideal) (s := S1x1x512x2048) (e := .f32)
      [⟨r0_3, k0_pay3 (iblk m c 0 t) (iblk m c 1 t) (iblk m c 3 t)⟩] y
    = attn (V m c main_arg0) (V m c main_arg1) (V m c main_arg3) (((cfg0.win 5).blk t).view.emb y)
  exact (Value.canon5_eq (F := Ideal) (iblk m c 0 t) (iblk m c 1 t) (iblk m c 3 t) y).trans (block5_entry m c t y)

/-- What point t writes back to the output's array is block t of the specification's output. -/
theorem flushed4_eq (c : Dev nD) (t : Fin cfg0.N) :
    (dats m 0 c).flushed 4 t
      = ((cfg0.win 4).blk t).view.read (Elt Ideal)
          (out (V m c main_arg0) (V m c main_arg1) (V m c main_arg2) (V m c main_arg3)) := by
  rw [Value.flushed4]
  unfold out0_4
  simp only [View.ld_unit_zero (S := S1x1x512x64) hz4, View.ld_unit_zero (S := S1x1x2048x64) hz4,
    View.ld_unit_zero (S := S1x1x1x2048) hz4]
  funext y
  show View.canon (Val := Elt Ideal) (s := S1x1x512x64) (e := .f32)
      [⟨r0_0, k0_pay1 (k0_pay4 (iblk m c 0 t) (iblk m c 1 t) (iblk m c 2 t) (iblk m c 3 t))⟩] y
    = out (V m c main_arg0) (V m c main_arg1) (V m c main_arg2) (V m c main_arg3) (((cfg0.win 4).blk t).view.emb y)
  exact (Value.canon4_eq (F := Ideal) (iblk m c 0 t) (iblk m c 1 t) (iblk m c 2 t) (iblk m c 3 t) y).trans
    (block4_entry m c t y)

/-! ## The written blocks cover the arrays -/

/-- An index of the weights' array is in point t's block iff each coordinate is in the block's range on its axis. -/
theorem mem_blk5 (t : Fin cfg0.N) (i : S4x16x2048x2048.Idx) :
    i ∈ ((cfg0.win 5).blk t).view.set ↔ ∀ a : Fin 4, win0_5.index t a * S1x1x512x2048.size a ≤ (i a).val
      ∧ (i a).val < win0_5.index t a * S1x1x512x2048.size a + S1x1x512x2048.size a := by
  show i ∈ ((View.whole main_v0_1).slice (win0_5.rect t)).set ↔ _
  rw [View.set_slice_whole, Rect.mem_set_unit]
  exact Iff.rfl

/-- An index of the output's array is in point t's block iff each coordinate is in the block's range on its axis. -/
theorem mem_blk4 (t : Fin cfg0.N) (i : S4x16x2048x64.Idx) :
    i ∈ ((cfg0.win 4).blk t).view.set ↔ ∀ a : Fin 4, win0_4.index t a * S1x1x512x64.size a ≤ (i a).val
      ∧ (i a).val < win0_4.index t a * S1x1x512x64.size a + S1x1x512x64.size a := by
  show i ∈ ((View.whole main_v0_0).slice (win0_4.rect t)).set ↔ _
  rw [View.set_slice_whole, Rect.mem_set_unit]
  exact Iff.rfl

/-- The point that works on batch b, head h and the query tile holding row r. -/
theorem point_of (b h r : ℕ) (hb : b < 4) (hh : h < 16) (hr : r < 2048) :
    ∃ t : Fin cfg0.N, t.val = (b * 16 + h) * 4 + r / 512 := by
  have hN : cfg0.N = 256 := N_0
  exact ⟨⟨(b * 16 + h) * 4 + r / 512, by omega⟩, rfl⟩

/-- Every index of the weights' array is in the block of the point that works on its batch, head and query tile. -/
theorem cover5 (i : S4x16x2048x2048.Idx) :
    ∃ t : Fin cfg0.N, (cfg0.win 5).flush t = true ∧ i ∈ ((cfg0.win 5).blk t).view.set := by
  have h0 : (i 0).val < 4 := (i 0).isLt
  have h1 : (i 1).val < 16 := (i 1).isLt
  have h2 : (i 2).val < 2048 := (i 2).isLt
  have h3 : (i 3).val < 2048 := (i 3).isLt
  obtain ⟨t, ht⟩ := point_of (i 0).val (i 1).val (i 2).val h0 h1 h2
  obtain ⟨-, -, -, -, -, -, -, -, -, -, -, -, -, -, -, -, -, -, -, -, e0, e1, e2, e3⟩ := idx_closed t
  refine ⟨t, flush0_5 t, ?_⟩
  rw [mem_blk5]
  intro a
  match a with
  | ⟨0, _⟩ => show win0_5.index t (0 : Fin 4) * 1 ≤ (i 0).val ∧ (i 0).val < win0_5.index t (0 : Fin 4) * 1 + 1; omega
  | ⟨1, _⟩ => show win0_5.index t (1 : Fin 4) * 1 ≤ (i 1).val ∧ (i 1).val < win0_5.index t (1 : Fin 4) * 1 + 1; omega
  | ⟨2, _⟩ => show win0_5.index t (2 : Fin 4) * 512 ≤ (i 2).val ∧ (i 2).val < win0_5.index t (2 : Fin 4) * 512 + 512; omega
  | ⟨3, _⟩ => show win0_5.index t (3 : Fin 4) * 2048 ≤ (i 3).val ∧ (i 3).val < win0_5.index t (3 : Fin 4) * 2048 + 2048; omega

/-- Every index of the output's array is in the block of the point that works on its batch, head and query tile. -/
theorem cover4 (i : S4x16x2048x64.Idx) :
    ∃ t : Fin cfg0.N, (cfg0.win 4).flush t = true ∧ i ∈ ((cfg0.win 4).blk t).view.set := by
  have h0 : (i 0).val < 4 := (i 0).isLt
  have h1 : (i 1).val < 16 := (i 1).isLt
  have h2 : (i 2).val < 2048 := (i 2).isLt
  have h3 : (i 3).val < 64 := (i 3).isLt
  obtain ⟨t, ht⟩ := point_of (i 0).val (i 1).val (i 2).val h0 h1 h2
  obtain ⟨-, -, -, -, -, -, -, -, -, -, -, -, -, -, -, -, e0, e1, e2, e3, -⟩ := idx_closed t
  refine ⟨t, flush0_4 t, ?_⟩
  rw [mem_blk4]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 1 ≤ (i 1).val ∧ (i 1).val < win0_4.index t (1 : Fin 4) * 1 + 1; omega
  | ⟨2, _⟩ => show win0_4.index t (2 : Fin 4) * 512 ≤ (i 2).val ∧ (i 2).val < win0_4.index t (2 : Fin 4) * 512 + 512; omega
  | ⟨3, _⟩ => show win0_4.index t (3 : Fin 4) * 64 ≤ (i 3).val ∧ (i 3).val < win0_4.index t (3 : Fin 4) * 64 + 64; omega

/-! ## The arrays after the run, and the run -/

/-- After the run the weights' array holds the specification's weights of the argument arrays. -/
theorem final5 (c : Dev nD) : (dats m 0 c).arrAt 5 cfg0.N
    = attn (m ((c : Thread nD τ).loc main_arg0)) (m ((c : Thread nD τ).loc main_arg1)) (m ((c : Thread nD τ).loc main_arg3)) :=
  (dats m 0 c).arrAt_eq_of_cover 5 (attn (V m c main_arg0) (V m c main_arg1) (V m c main_arg3))
    (fun t _ => flushed5_eq m c t) cover5

/-- After the run the output's array holds the specification's output of the argument arrays. -/
theorem final4 (c : Dev nD) : (dats m 0 c).arrAt 4 cfg0.N
    = out (m ((c : Thread nD τ).loc main_arg0)) (m ((c : Thread nD τ).loc main_arg1)) (m ((c : Thread nD τ).loc main_arg2))
        (m ((c : Thread nD τ).loc main_arg3)) :=
  (dats m 0 c).arrAt_eq_of_cover 4 (out (V m c main_arg0) (V m c main_arg1) (V m c main_arg2) (V m c main_arg3))
    (fun t _ => flushed4_eq m c t) cover4

/-- The kernel's run: every execution ends with the two result arrays at the specification of the arguments, the
    arguments unchanged. -/
theorem run : θ_run defs (onTc (τ := τ) (main (F := Ideal))) ⟨m, fun _ => 0, ρ⟩ fun r => ∀ c : Dev nD,
      r.2.mem ((c : Thread nD τ).loc main_v0_0)
        = out (m ((c : Thread nD τ).loc main_arg0)) (m ((c : Thread nD τ).loc main_arg1))
            (m ((c : Thread nD τ).loc main_arg2)) (m ((c : Thread nD τ).loc main_arg3))
      ∧ r.2.mem ((c : Thread nD τ).loc main_v0_1)
        = attn (m ((c : Thread nD τ).loc main_arg0)) (m ((c : Thread nD τ).loc main_arg1)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final4 m c), (h c).2.1.trans (final5 m c), (h c).2.2⟩)
    (Cert.KernelIdeal.Value.run_blocks m ρ)

end Cert.Attn.Blocks

end
-- ==== Proof.Consts.lean ====
/-
  The float words the two programs spell, as the extended reals they denote, and the one law that joins the two
  spellings of the logit scale: the kernel multiplies by the word of 1/8, the reference divides by the square root of
  the word of 64. The square root of 64 is 8, and dividing an extended real by a nonzero real is multiplying by its
  reciprocal at the infinities too, so the two scalings are one function on every extended real.
-/
import Idealize.ShloMosaic.PureOps.Ideal
import Idealize.ShloMosaic.PureOps.Ideal.Laws

noncomputable section

namespace Cert.Attn.Consts

open Idealize.ShloMosaic

/-- The word of `64.0` denotes the real 64. -/
theorem ofBits_64 : Ideal.ofBits .f32 0x42800000#32 = ((64 : ℝ) : EReal) := by
  simp [Ideal.ofBits, Ideal.ieee, -EReal.coe_mul]; norm_num

/-- The word of `0.125` denotes the real 1/8. -/
theorem ofBits_eighth : Ideal.ofBits .f32 0x3E000000#32 = ((1 / 8 : ℝ) : EReal) := by
  simp [Ideal.ofBits, Ideal.ieee, -EReal.coe_mul]; norm_num

/-- The word of negative infinity denotes the least extended real. -/
theorem ofBits_negInf : Ideal.ofBits .f32 0xFF800000#32 = (⊥ : EReal) := by
  simp [Ideal.ofBits, Ideal.ieee]

/-- The square root of 64 is 8. -/
theorem sqrt_64 : Ideal.sqrt ((64 : ℝ) : EReal) = ((8 : ℝ) : EReal) := by
  rw [Ideal.sqrt_coe, if_neg (by norm_num)]
  have h : Real.sqrt 64 = 8 := by
    rw [show (64 : ℝ) = 8 ^ 2 by norm_num]
    exact Real.sqrt_sq (by norm_num)
  rw [h]

/-- Dividing by the square root of the word of 64 is multiplying by the word of 1/8, on every extended real. -/
theorem div_sqrt_64 (x : EReal) :
    Ideal.div x (Ideal.sqrt (Ideal.ofBits .f32 0x42800000#32)) = x * Ideal.ofBits .f32 0x3E000000#32 := by
  rw [ofBits_64, sqrt_64, ofBits_eighth]
  exact Ideal.div_coe (by norm_num) x

/-- The larger of negative infinity and `y` is `y`. -/
theorem max_negInf (y : EReal) : max (Ideal.ofBits .f32 0xFF800000#32) y = y := by
  rw [ofBits_negInf]; exact max_bot_left y

end Cert.Attn.Consts

end
-- ==== Proof.LibHostLast4.lean ====
/-
  The host's reduce with max along the last axis of a rank-4 array, read at an index on the extended reals and for any
  extents: over [n0, n1, n2, k] into [n0, n1, n2] it is, at (a, b, r), the fold of max from the initial value over the k
  entries (a, b, r, ·).
-/
import Idealize.ShloMosaic.PureOps.Ideal.Laws
import Idealize.ShloMosaic.Lib.ValueIdx

noncomputable section

namespace Idealize.ShloMosaic.HostLast4

open Idealize.ShloMosaic Idealize.ShloMosaic.ValueIdx

/-- The reduced index `(a, b, r)` with the last coordinate `c` put back is `(a, b, r, c)`. -/
theorem lift_last {n0 n1 n2 k : ℕ} (h : (⟨4, ![n0, n1, n2, k]⟩ : Shape).Reduces [3] ⟨3, ![n0, n1, n2]⟩)
    (a : Fin n0) (b : Fin n1) (r : Fin n2) (c : Fin k) : h.lift (ix3 a b r) c = ix4 a b r c :=
  funext fun x => Fin.ext (by match x with | ⟨0, _⟩ => rfl | ⟨1, _⟩ => rfl | ⟨2, _⟩ => rfl | ⟨3, _⟩ => rfl)

/-- A host reduce with max over the last axis of an `[n0, n1, n2, k]` array, at `(a, b, r)`: the fold of max over
    the entries `(a, b, r, ·)`. -/
theorem reduce_max_last_apply {n0 n1 n2 k : ℕ} (z : (⟨4, ![n0, n1, n2, k]⟩ : Shape).Idx → EReal) {u : Shape}
    (init : u.Idx → EReal) (h' : (⟨4, ![n0, n1, n2, k]⟩ : Shape).ReducesTo [3] ⟨3, ![n0, n1, n2]⟩)
    (h : (⟨4, ![n0, n1, n2, k]⟩ : Shape).Reduces [3] ⟨3, ![n0, n1, n2]⟩) (hu : 0 < u.numel)
    (a : Fin n0) (b : Fin n1) (r : Fin n2) :
    Host.reduce (max : EReal → EReal → EReal) z init h' hu (ix3 a b r)
      = (Finset.univ : Finset (Fin k)).fold max (init (Shape.Idx.first hu)) (fun c => z (ix4 a b r c)) :=
  (Host.reduce_eq_fold_single max z init h' h hu (ix3 a b r)).trans
    (Finset.fold_congr fun c _ => congrArg z (lift_last h a b r c))

end Idealize.ShloMosaic.HostLast4

end
-- ==== Proof.Reference.lean ====
/-
  The reference program computes the specification: its attention-weight result is `attn` of its arguments and its
  output result is `out`, entry by entry on the extended reals.

  The reference divides the query-key products by the square root of 64 where the specification multiplies by 1/8: one
  function on every extended real. It takes each row's maximum by a reduce from negative infinity and then once more
  against negative infinity, which changes nothing; its row sums start from zero. Everything else is the
  specification's own operations read at an index.
-/
import proofs.«152726_j35673998361132_1_alg».proof.Proof.Gen.ReferenceIdeal.Read
import proofs.«152726_j35673998361132_1_alg».proof.Proof.Spec
import proofs.«152726_j35673998361132_1_alg».proof.Proof.Consts
import proofs.«152726_j35673998361132_1_alg».proof.Proof.LibHostLast4

noncomputable section

open scoped BigOperators

namespace Cert.Attn.Ref

open Cert.ReferenceIdeal Cert.ReferenceIdeal.Gen Cert.ReferenceIdeal.Read Idealize.ShloMosaic Idealize.ShloMosaic.ValueIdx Cert.Attn

variable (x0 x1 x2 : (⟨S4x16x2048x64, .f32⟩ : BufTy).Contents (Elt Ideal)) (x3 : (⟨S4x1x1x2048, .f32⟩ : BufTy).Contents (Elt Ideal))

/-- The reference's logits at (b, h, r, c) are the specification's. -/
theorem v7_apply (b : Fin 4) (h : Fin 16) (r c : Fin 2048) :
    val_main_v7 (F := Ideal) x0 x1 x3 (ix4 b h r c) = logit x0 x1 x3 b h r c := by
  have el : ∀ k, lidx_main_v0 (ix4 b h r c) k = ix4 b h r k := fun k => funext fun a => Fin.ext (by
    match a with | ⟨0, _⟩ => rfl | ⟨1, _⟩ => rfl | ⟨2, _⟩ => rfl | ⟨3, _⟩ => rfl)
  have er : ∀ k, ridx_main_v0 (ix4 b h r c) k = ix4 b h c k := fun k => funext fun a => Fin.ext (by
    match a with | ⟨0, _⟩ => rfl | ⟨1, _⟩ => rfl | ⟨2, _⟩ => rfl | ⟨3, _⟩ => rfl)
  have e6 : idx_main_v6 (ix4 b h r c) = ix4 b (0 : Fin 1) (0 : Fin 1) c := funext fun a => Fin.ext (by
    match a with | ⟨0, _⟩ => rfl | ⟨1, _⟩ => rfl | ⟨2, _⟩ => rfl | ⟨3, _⟩ => rfl)
  rw [val_main_v7_apply, val_main_v3_apply, val_main_v0_apply, val_main_v2_apply, val_main_v1_apply, val_main_cst_apply,
    val_main_v6_apply, val_main_v5_apply, val_main_v4_apply, val_main_cst_0_apply]
  simp only [el, er, e6, Ideal.addf_def, Ideal.hostDivf_def, Ideal.hostUnary_sqrt_def, Ideal.ofBits_def, Ideal.mulf_def]
  rw [Consts.div_sqrt_64]
  rfl

/-- The reference's row maximum at (b, h, r) is the specification's. -/
theorem v8_apply (b : Fin 4) (h : Fin 16) (r : Fin 2048) :
    val_main_v8 (F := Ideal) x0 x1 x3 (ix3 b h r) = rowMax (logit x0 x1 x3 b h r) := by
  unfold val_main_v8 rowMax
  show Host.reduce (max : EReal → EReal → EReal) (val_main_v7 (F := Ideal) x0 x1 x3) (val_main_cst_1 (F := Ideal))
    reducesTo_S4x16x2048x2048_S4x16x2048_d3 h_S_ (ix3 b h r) = _
  refine (HostLast4.reduce_max_last_apply (val_main_v7 (F := Ideal) x0 x1 x3) (val_main_cst_1 (F := Ideal))
    reducesTo_S4x16x2048x2048_S4x16x2048_d3 (by decide) h_S_ b h r).trans ?_
  exact congrArg (fun f => Finset.fold max negInf f (Finset.univ : Finset (Fin 2048))) (funext fun c => v7_apply x0 x1 x3 b h r c)

/-- The reference's shifted exponentials at (b, h, r, j) are the specification's. -/
theorem v14_apply (b : Fin 4) (h : Fin 16) (r j : Fin 2048) :
    val_main_v14 (F := Ideal) x0 x1 x3 (ix4 b h r j) = rowExp (logit x0 x1 x3 b h r) j := by
  have e12 : idx_main_v11 (idx_main_v12 (ix4 b h r j)) = ix3 b h r := funext fun a => Fin.ext (by
    match a with | ⟨0, _⟩ => rfl | ⟨1, _⟩ => rfl | ⟨2, _⟩ => rfl)
  rw [val_main_v14_apply, val_main_v13_apply, val_main_v12_apply, val_main_v11_apply, val_main_v10_apply, val_main_v9_apply,
    val_main_cst_2_apply, e12, v8_apply, v7_apply]
  simp only [Ideal.hostUnary_exp_def, Ideal.subf_def, Ideal.maximumf_def, Ideal.ofBits_def]
  rw [Consts.max_negInf]
  rfl

/-- The reference's weights at (b, h, r, j) are the specification's. -/
theorem v18_apply (b : Fin 4) (h : Fin 16) (r j : Fin 2048) :
    val_main_v18 (F := Ideal) x0 x1 x3 (ix4 b h r j) = attnAt x0 x1 x3 b h r j := by
  have e : ∀ k, idx_main_v15 (idx_main_v16 (idx_main_v17 (ix4 b h r j))) k = ix4 b h r k := fun k => funext fun a => Fin.ext (by
    match a with | ⟨0, _⟩ => rfl | ⟨1, _⟩ => rfl | ⟨2, _⟩ => rfl | ⟨3, _⟩ => rfl)
  rw [val_main_v18_apply, val_main_v17_apply, val_main_v16_apply, val_main_v15_apply, val_main_cst_3_apply, v14_apply]
  simp only [e, v14_apply, Ideal.hostDivf_def, Ideal.ofBits_def, Ideal.ofBits_zero_f32, zero_add]
  rfl

/-- The reference's attention-weight result is the specification's array. -/
theorem v18_eq : val_main_v18 (F := Ideal) x0 x1 x3 = attn x0 x1 x3 := by
  funext i
  obtain ⟨b, h, r, j, rfl⟩ : ∃ (b : Fin 4) (h : Fin 16) (r : Fin 2048) (j : Fin 2048), i = ix4 b h r j :=
    ⟨i 0, i 1, i 2, i 3, eq_ix4 i⟩
  rw [attn_ix4]
  exact v18_apply x0 x1 x3 b h r j

/-- The reference's output result is the specification's array. -/
theorem v19_eq : val_main_v19 (F := Ideal) x0 x1 x2 x3 = out x0 x1 x2 x3 := by
  funext i
  obtain ⟨b, h, r, d, rfl⟩ : ∃ (b : Fin 4) (h : Fin 16) (r : Fin 2048) (d : Fin 64), i = ix4 b h r d :=
    ⟨i 0, i 1, i 2, i 3, eq_ix4 i⟩
  have el : ∀ k, lidx_main_v19 (ix4 b h r d) k = ix4 b h r k := fun k => funext fun a => Fin.ext (by
    match a with | ⟨0, _⟩ => rfl | ⟨1, _⟩ => rfl | ⟨2, _⟩ => rfl | ⟨3, _⟩ => rfl)
  have er : ∀ k, ridx_main_v19 (ix4 b h r d) k = ix4 b h k d := fun k => funext fun a => Fin.ext (by
    match a with | ⟨0, _⟩ => rfl | ⟨1, _⟩ => rfl | ⟨2, _⟩ => rfl | ⟨3, _⟩ => rfl)
  rw [val_main_v19_apply, out_ix4]
  unfold outAt
  refine Finset.sum_congr rfl fun k _ => ?_
  rw [el, er, v18_apply]

end Cert.Attn.Ref

end
-- ==== Proof.lean ====
/-
  Masked scaled-dot-product attention: a kernel tiled over 512 query rows per batch and head, against the plain
  reference, on the extended reals.

  Both programs compute, for batch b, head h, query row r and key j, the logit (∑ d, q·k) · (1/8) + mask · (−10⁹), the
  softmax of each row of logits (row maximum from −∞, shifted exponentials, their sum, the quotient) and the weights'
  product with the values. They differ in three spellings only. The kernel multiplies the query-key products by the
  word of 1/8 while the reference divides them by the square root of the word of 64: dividing an extended real by the
  real 8 is multiplying it by 1/8, at the infinities too. The reference takes each row's maximum once more against
  −∞, which changes nothing, and starts its row sums from zero. And the kernel's products are matrix products of
  loaded blocks where the reference's are batched contractions: the same finite sums over the shared coordinate. None of
  this needs the inputs to be finite, so the precondition is not opened.

  The three frames are the generated ones (the reference's is its generated run with the results dropped); the kernel
  is its own idealization (no rewrite applied), so that claim is trivial; the equality of results sets the kernel's run,
  read block by block up to the whole arrays, beside the reference's run, read operation by operation: both end at the
  same two functions of the arguments.
-/
import proofs.«152726_j35673998361132_1_alg».proof.Defs
import proofs.«152726_j35673998361132_1_alg».proof.Proof.Gen.Kernel
import proofs.«152726_j35673998361132_1_alg».proof.Proof.Gen.Kernel.Skeleton
import proofs.«152726_j35673998361132_1_alg».proof.Proof.Gen.Kernel.Launch
import proofs.«152726_j35673998361132_1_alg».proof.Proof.Gen.Kernel.Points
import proofs.«152726_j35673998361132_1_alg».proof.Proof.Gen.Kernel.Frame
import proofs.«152726_j35673998361132_1_alg».proof.Proof.Gen.KernelIdeal
import proofs.«152726_j35673998361132_1_alg».proof.Proof.Gen.KernelIdeal.Skeleton
import proofs.«152726_j35673998361132_1_alg».proof.Proof.Gen.KernelIdeal.Launch
import proofs.«152726_j35673998361132_1_alg».proof.Proof.Gen.KernelIdeal.Points
import proofs.«152726_j35673998361132_1_alg».proof.Proof.Gen.KernelIdeal.Frame
import proofs.«152726_j35673998361132_1_alg».proof.Proof.Gen.ReferenceIdeal
import proofs.«152726_j35673998361132_1_alg».proof.Proof.Gen.Pre_finite_inputs
import proofs.«152726_j35673998361132_1_alg».proof.Proof.Gen.KernelIdeal.Value
import proofs.«152726_j35673998361132_1_alg».proof.Proof.Gen.ReferenceIdeal.Run
import proofs.«152726_j35673998361132_1_alg».proof.Proof.Gen.ReferenceIdeal.Read
import proofs.«152726_j35673998361132_1_alg».proof.Proof.Blocks
import proofs.«152726_j35673998361132_1_alg».proof.Proof.Reference
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- The reference runs and leaves its arguments as they were: its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The kernel's result arrays end at the attention output and weights of its arguments, and so do the reference's
    of arguments that agree with them. -/
theorem algebraic : Cert.algebraic_KernelIdeal_ReferenceIdeal := by
  intro m ρ m' ρ' _ hagree
  refine ⟨fun c => Cert.Attn.out (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    fun c => Cert.Attn.attn (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg3)),
    Cert.Attn.Blocks.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [(hagree c).1, (hagree c).2.1, (hagree c).2.2.1, (hagree c).2.2.2]
    exact (Cert.ReferenceIdeal.Read.val_main_v19_eq _ _ _ _).trans (Cert.Attn.Ref.v19_eq _ _ _ _)
  · rw [(hagree c).1, (hagree c).2.1, (hagree c).2.2.2]
    exact (Cert.ReferenceIdeal.Read.val_main_v18_eq _ _ _).trans (Cert.Attn.Ref.v18_eq _ _ _)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
